-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v45_0)) (v2 : (c : Dev Cert.KernelIdeal.nD) → Buf (Elt Ideal) ((c.tc : Thread Cert.KernelIdeal.nD Cert.KernelIdeal.τ).loc Cert.KernelIdeal.main_v45_1)) (v3 : (c : Dev Cert.KernelIdeal.nD) → Buf (Elt Ideal) ((c.tc : Thread Cert.KernelIdeal.nD Cert.KernelIdeal.τ).loc Cert.KernelIdeal.main_v62)) (v4 : (c : Dev Cert.KernelIdeal.nD) → Buf (Elt Ideal) ((c.tc : Thread Cert.KernelIdeal.nD Cert.KernelIdeal.τ).loc Cert.KernelIdeal.main_v61_1)) (v5 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v45_0) = v1 c
          ∧ r.2.mem ((c.tc : Thread Cert.KernelIdeal.nD Cert.KernelIdeal.τ).loc Cert.KernelIdeal.main_v45_1) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_v61_1) = v4 c
          ∧ r.2.mem ((c.tc : Thread Cert.KernelIdeal.nD Cert.KernelIdeal.τ).loc Cert.KernelIdeal.main_v63) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x64 .f32) (main_arg3 : FVec F S64 .f32) (main_arg4 : FVec F S64x16 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x512 : Shape := ⟨2, ![2000, 512]⟩
abbrev S2000x64 : Shape := ⟨2, ![2000, 64]⟩
abbrev S850000x64 : Shape := ⟨2, ![850000, 64]⟩
abbrev S1x64 : Shape := ⟨2, ![1, 64]⟩
abbrev S50000x32 : Shape := ⟨2, ![50000, 32]⟩
abbrev S10000x64 : Shape := ⟨2, ![10000, 64]⟩
abbrev S10000x32 : Shape := ⟨2, ![10000, 32]⟩
abbrev S50000x16 : Shape := ⟨2, ![50000, 16]⟩
abbrev S10000x16 : Shape := ⟨2, ![10000, 16]⟩
abbrev S850000x16 : Shape := ⟨2, ![850000, 16]⟩
abbrev S1x16 : Shape := ⟨2, ![1, 16]⟩
abbrev S50000x8 : Shape := ⟨2, ![50000, 8]⟩
abbrev S10000x8 : Shape := ⟨2, ![10000, 8]⟩

abbrev nBuf : Space → Nat
  | .hbm => 90
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x32, .f32⟩
  | .hbm, ⟨66, _⟩ => ⟨S50000x16, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x16, .f32⟩
  | .hbm, ⟨76, _⟩ => ⟨S850000x1, .f32⟩
  | .hbm, ⟨77, _⟩ => ⟨S850000x16, .f32⟩
  | .hbm, ⟨78, _⟩ => ⟨S850000x16, .f32⟩
  | .hbm, ⟨79, _⟩ => ⟨S_, .f32⟩
  | .hbm, ⟨80, _⟩ => ⟨S50000x16, .f32⟩
  | .hbm, ⟨81, _⟩ => ⟨S850000x1, .i32⟩
  | .hbm, ⟨82, _⟩ => ⟨S50000x16, .f32⟩
  | .hbm, ⟨83, _⟩ => ⟨S1x16, .f32⟩
  | .hbm, ⟨84, _⟩ => ⟨S50000x16, .f32⟩
  | .hbm, ⟨85, _⟩ => ⟨S50000x8, .f32⟩
  | .hbm, ⟨86, _⟩ => ⟨S_, .f32⟩
  | .hbm, ⟨87, _⟩ => ⟨S50000x32, .f32⟩
  | .hbm, ⟨88, _⟩ => ⟨S_, .f32⟩
  | .hbm, ⟨89, _⟩ => ⟨S50000x8, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x32, .f32⟩
  | .local _ .vmem, ⟨11, _⟩ => ⟨S10000x32, .f32⟩
  | .local _ .vmem, ⟨12, _⟩ => ⟨S10000x64, .f32⟩
  | .local _ .vmem, ⟨13, _⟩ => ⟨S10000x64, .f32⟩
  | .local _ .vmem, ⟨14, _⟩ => ⟨S64x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S1x16, .f32⟩
  | .local _ .vmem, ⟨20, _⟩ => ⟨S10000x16, .f32⟩
  | .local _ .vmem, ⟨21, _⟩ => ⟨S10000x16, .f32⟩
  | .local _ .vmem, ⟨22, _⟩ => ⟨S10000x8, .f32⟩
  | .local _ .vmem, ⟨23, _⟩ => ⟨S10000x8, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_cst_12 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S10000x64_o0_0_S10000x32 : S10000x64.Slices ![0, 0] S10000x32
  slices_S10000x64_o0_32_S10000x32 : S10000x64.Slices ![0, 32] S10000x32
  inb_S10000x32_S10000x32_0_0 : ∀ a, (![0, 0] : Fin 2 → Nat) a + S10000x32.size a ≤ S10000x32.size a
  h_S10000x32 : 0 < S10000x32.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S10000x16_S10000x16 : S10000x16.ShapeCasts S10000x16
  slices_S10000x16_o0_0_S10000x8 : S10000x16.Slices ![0, 0] S10000x8
  slices_S10000x16_o0_8_S10000x8 : S10000x16.Slices ![0, 8] S10000x8
  inb_S10000x8_S10000x8_0_0 : ∀ a, (![0, 0] : Fin 2 → Nat) a + S10000x8.size a ≤ S10000x8.size a
  h_S10000x8 : 0 < S10000x8.numel
  bcast_S_S50000x32 : S_.BroadcastsInDim S50000x32 (![] : Fin 0 → Fin S50000x32.rank)
  bcast_S_S50000x8 : S_.BroadcastsInDim S50000x8 (![] : Fin 0 → Fin S50000x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x64_S2000x64_1_0_0_1_n_n_wf : DotDims.WF S2000x512 S512x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x16_S10000x16_1_0_0_1_n_n_wf : DotDims.WF S10000x64 S64x16 S10000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S50000x32.size a
  hwx1_3 : ∀ i : grid1.Coords, EltTy.bits .f32 = 32 ∨ (Rect.block (s := S50000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S50000x16.size a
  hwx2_2 : ∀ i : grid2.Coords, EltTy.bits .f32 = 32 ∨ (Rect.block (s := S50000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S50000x16.size a
  hwx3_0 : ∀ i : grid3.Coords, EltTy.bits .f32 = 32 ∨ (Rect.block (s := S50000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S50000x16.size a
  hwx3_2 : ∀ i : grid3.Coords, EltTy.bits .f32 = 32 ∨ (Rect.block (s := S50000x16) S10000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x8.size a ≤ S50000x8.size a
  hwx3_3 : ∀ i : grid3.Coords, EltTy.bits .f32 = 32 ∨ (Rect.block (s := S50000x8) S10000x8.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61_0) S10000x16.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61_1) S10000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S50000x16 : Shape := ⟨2, ![50000, 16]⟩
abbrev S850000x16 : Shape := ⟨2, ![850000, 16]⟩
abbrev S1x16 : Shape := ⟨2, ![1, 16]⟩
abbrev S50000x8 : Shape := ⟨2, ![50000, 8]⟩

abbrev nBuf : Space → Nat
  | .hbm => 188
  | .vmem => 0
  | .smem => 0
  | _ => 0

abbrev hbmTy0_0 (i : Nat) : BufTy := match i % 128 with
  | 0 => ⟨S50000x512, .f32⟩
  | 1 => ⟨S2x800000, .i32⟩
  | 2 => ⟨S512x64, .f32⟩
  | 3 => ⟨S64, .f32⟩
  | 4 => ⟨S64x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000x64, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x64, .f32⟩
  | 56 => ⟨S850000x1, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S50000x32, .f32⟩
  | 67 => ⟨S50000x32, .f32⟩
  | 68 => ⟨S_, .f32⟩
  | 69 => ⟨S50000x32, .f32⟩
  | 70 => ⟨S50000x32, .f32⟩
  | 71 => ⟨S50000x32, .f32⟩
  | 72 => ⟨S50000x32, .f32⟩
  | 73 => ⟨S50000x32, .i1⟩
  | 74 => ⟨S50000x32, .f32⟩
  | 75 => ⟨S50000x32, .f32⟩
  | 76 => ⟨S50000x32, .f32⟩
  | 77 => ⟨S50000x32, .f32⟩
  | 78 => ⟨S50000x32, .f32⟩
  | 79 => ⟨S50000x32, .f32⟩
  | 80 => ⟨S50000x32, .f32⟩
  | 81 => ⟨S50000x32, .f32⟩
  | 82 => ⟨S_, .f32⟩
  | 83 => ⟨S50000x32, .f32⟩
  | 84 => ⟨S50000x32, .f32⟩
  | 85 => ⟨S50000x32, .f32⟩
  | 86 => ⟨S50000x32, .f32⟩
  | 87 => ⟨S50000x32, .f32⟩
  | 88 => ⟨S50000x32, .f32⟩
  | 89 => ⟨S50000x32, .f32⟩
  | 90 => ⟨S_, .f32⟩
  | 91 => ⟨S50000x32, .f32⟩
  | 92 => ⟨S50000x32, .f32⟩
  | 93 => ⟨S50000x32, .f32⟩
  | 94 => ⟨S_, .f32⟩
  | 95 => ⟨S50000x32, .f32⟩
  | 96 => ⟨S50000x32, .f32⟩
  | 97 => ⟨S50000x16, .f32⟩
  | 98 => ⟨S50000, .i32⟩
  | 99 => ⟨S850000, .i32⟩
  | 100 => ⟨S850000, .i32⟩
  | 101 => ⟨S_, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .i1⟩
  | 110 => ⟨S50000, .f32⟩
  | 111 => ⟨S_, .f32⟩
  | 112 => ⟨S_, .f32⟩
  | 113 => ⟨S50000, .f32⟩
  | 114 => ⟨S50000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S_, .i32⟩
  | 125 => ⟨S850000, .i32⟩
  | 126 => ⟨S850000, .i1⟩
  | 127 => ⟨S_, .i32⟩
  | _ => ⟨S50000x512, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000, .f32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x16, .f32⟩
  | 15 => ⟨S850000x1, .f32⟩
  | 16 => ⟨S850000x16, .f32⟩
  | 17 => ⟨S850000x16, .f32⟩
  | 18 => ⟨S_, .f32⟩
  | 19 => ⟨S50000x16, .f32⟩
  | 20 => ⟨S850000x1, .i32⟩
  | 21 => ⟨S50000x16, .f32⟩
  | 22 => ⟨S1x16, .f32⟩
  | 23 => ⟨S50000x16, .f32⟩
  | 24 => ⟨S50000x16, .f32⟩
  | 25 => ⟨S50000x8, .f32⟩
  | 26 => ⟨S50000x8, .f32⟩
  | 27 => ⟨S_, .f32⟩
  | 28 => ⟨S50000x8, .f32⟩
  | 29 => ⟨S50000x8, .f32⟩
  | 30 => ⟨S50000x8, .f32⟩
  | 31 => ⟨S50000x8, .f32⟩
  | 32 => ⟨S50000x8, .i1⟩
  | 33 => ⟨S50000x8, .f32⟩
  | 34 => ⟨S50000x8, .f32⟩
  | 35 => ⟨S50000x8, .f32⟩
  | 36 => ⟨S50000x8, .f32⟩
  | 37 => ⟨S50000x8, .f32⟩
  | 38 => ⟨S50000x8, .f32⟩
  | 39 => ⟨S50000x8, .f32⟩
  | 40 => ⟨S50000x8, .f32⟩
  | 41 => ⟨S_, .f32⟩
  | 42 => ⟨S50000x8, .f32⟩
  | 43 => ⟨S50000x8, .f32⟩
  | 44 => ⟨S50000x8, .f32⟩
  | 45 => ⟨S50000x8, .f32⟩
  | 46 => ⟨S50000x8, .f32⟩
  | 47 => ⟨S50000x8, .f32⟩
  | 48 => ⟨S50000x8, .f32⟩
  | 49 => ⟨S_, .f32⟩
  | 50 => ⟨S50000x8, .f32⟩
  | 51 => ⟨S50000x8, .f32⟩
  | 52 => ⟨S50000x8, .f32⟩
  | 53 => ⟨S_, .f32⟩
  | 54 => ⟨S50000x8, .f32⟩
  | 55 => ⟨S50000x8, .f32⟩
  | 56 => ⟨S_, .f32⟩
  | 57 => ⟨S50000x32, .f32⟩
  | 58 => ⟨S_, .f32⟩
  | 59 => ⟨S50000x8, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_call2_v0 : Ref sig .tc := ⟨.hbm, 112, rfl⟩
abbrev main_call2_v1 : Ref sig .tc := ⟨.hbm, 113, rfl⟩
abbrev main_v73 : Ref sig .tc := ⟨.hbm, 114, rfl⟩
abbrev main_c_16 : Ref sig .tc := ⟨.hbm, 115, rfl⟩
abbrev main_v74 : Ref sig .tc := ⟨.hbm, 116, rfl⟩
abbrev main_v75 : Ref sig .tc := ⟨.hbm, 117, rfl⟩
abbrev main_c_17 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_18 : Ref sig .tc := ⟨.hbm, 124, rfl⟩
abbrev main_v81 : Ref sig .tc := ⟨.hbm, 125, rfl⟩
abbrev main_v82 : Ref sig .tc := ⟨.hbm, 126, rfl⟩
abbrev main_c_19 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_20 : Ref sig .tc := ⟨.hbm, 134, rfl⟩
abbrev main_v89 : Ref sig .tc := ⟨.hbm, 135, rfl⟩
abbrev main_v90 : Ref sig .tc := ⟨.hbm, 136, rfl⟩
abbrev main_c_21 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_22 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_v107 : Ref sig .tc := ⟨.hbm, 168, rfl⟩
abbrev main_cst_23 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_24 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_25 : Ref sig .tc := ⟨.hbm, 181, rfl⟩
abbrev main_v118 : Ref sig .tc := ⟨.hbm, 182, rfl⟩
abbrev main_v119 : Ref sig .tc := ⟨.hbm, 183, rfl⟩
abbrev main_cst_26 : Ref sig .tc := ⟨.hbm, 184, rfl⟩
abbrev main_v120 : Ref sig .tc := ⟨.hbm, 185, rfl⟩
abbrev main_cst_27 : Ref sig .tc := ⟨.hbm, 186, rfl⟩
abbrev main_v121 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x64_S50000x32_0_0 : S50000x64.Slices ![0, 0] S50000x32
  slices_S50000x64_S50000x32_0_32 : S50000x64.Slices ![0, 32] S50000x32
  bcast_S_S50000x32 : S_.BroadcastsInDim S50000x32 (![] : Fin 0 → Fin S50000x32.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  slices_S50000x16_S50000x8_0_0 : S50000x16.Slices ![0, 0] S50000x8
  slices_S50000x16_S50000x8_0_8 : S50000x16.Slices ![0, 8] S50000x8
  bcast_S_S50000x8 : S_.BroadcastsInDim S50000x8 (![] : Fin 0 → Fin S50000x8.rank)
  dot_S50000x512_S512x64_S50000x64_1_0_0_1_n_n_wf : DotDims.WF S50000x512 S512x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run with its results named.

  @main is ten segments: stretches of host operations and the four pipelined calls. The buffer contents at each
  boundary are a fold from the launch memory — a stretch applies its operations, a call leaves each of its arrays at
  what its write-backs leave and every other buffer as entered. Every weakly fair execution ends with every buffer
  that lives through the run at the last boundary's contents; here that is kept for the six result buffers (the frame
  statement keeps it for the arguments only), by the same launch over the same segments.
-/
import proofs.«148669_j13134009991725_1_alg».proof.Proof.Gen.KernelIdeal.Frame

set_option maxRecDepth 16384

noncomputable section

namespace Cert.KernelIdeal.Gen.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v61_0) = W10 m ρ c (Proc.devRef .tc main_v61_0)
      ∧       r.2.mem ((c.tc : Thread nD τ).loc main_v45_0) = W10 m ρ c (Proc.devRef .tc main_v45_0)
      ∧       r.2.mem ((c.tc : Thread nD τ).loc main_v45_1) = W10 m ρ c (Proc.devRef .tc main_v45_1)
      ∧       r.2.mem ((c.tc : Thread nD τ).loc main_v62) = W10 m ρ c (Proc.devRef .tc main_v62)
      ∧       r.2.mem ((c.tc : Thread nD τ).loc main_v61_1) = W10 m ρ c (Proc.devRef .tc main_v61_1)
      ∧       r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61_0 (by decide)),
       h c _ (mem_uc main_v45_0 (by decide)),
       h c _ (mem_uc main_v45_1 (by decide)),
       h c _ (mem_uc main_v62 (by decide)),
       h c _ (mem_uc main_v61_1 (by decide)),
       h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Gen.Named

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«148669_j13134009991725_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Proj1.lean ====
/-
  The first projection, h1 = x · W1, as the array the first pipelined call leaves.

  The call walks the 50000 rows of x in 25 blocks of 2000 rows; at each block the body multiplies the block by the whole
  of W1 on the matrix unit (both operands rounded to bf16 on the way in, which changes nothing over the extended reals)
  and writes the 2000 × 64 product back to rows 2000·t … 2000·t + 1999 of the result. So entry (i, j) of the result is
  Σ_k x[i, k] · W1[k, j] whatever block i falls in: the blocks are restrictions of ONE function of the two arrays, and
  they tile the result.
-/
import proofs.«148669_j13134009991725_1_alg».proof.Proof.Gen.KernelIdeal.Frame
import proofs.«148669_j13134009991725_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj1

open Cert.KernelIdeal Cert.KernelIdeal.Gen Idealize.ShloMosaic Idealize.ShloMosaic.TcCoe Idealize.ShloMosaic.ValueIdx
open Idealize.SL.Sem
open Idealize.ShloMosaic.DotInner

/-- The product of a [50000, 512] array with a [512, 64] array, entry by entry. -/
def rowsTimes (a : FVec Ideal S50000x512 .f32) (b : FVec Ideal S512x64 .f32) : FVec Ideal S50000x64 .f32 :=
  fun i => ∑ k : Fin 512, a (ix2 (i 0) k) * b (ix2 k (i 1))

/-- The block product's dimension numbers say rows by columns. -/
theorem plain : Plain dot_S2000x512_S512x64_S2000x64_1_0_0_1_n_n :=
  plain_record dot_S2000x512_S512x64_S2000x64_1_0_0_1_n_n, S2000x512, S512x64

/-- What the body stores, at an entry of the block: the row of the left block against the column of the weights. -/
theorem payload_apply (x0 : Vec Ideal S2000x512 .f32) (x1 : Vec Ideal S512x64 .f32) (p : Fin 2000) (f : Fin 64) :
    k0_pay1 (F := Ideal) x0 x1 (ix2 p f) = ∑ k : Fin 512, x0 (ix2 p k) * x1 (ix2 k f) := by
  unfold k0_pay1
  exact plain.matmul_zero none (truncf .bf16 x0 bitsLt_bf16_f32) (truncf .bf16 x1 bitsLt_bf16_f32) p f

theorem hz : (![0, 0] : Fin 2 → Nat) = fun _ => 0 := funext fun a => by fin_cases a <;> rfl

/-- The printed index maps over the 25 points: the left block and the result block are block t along the rows, the
    weights are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The two arrays as the call finds them. -/
abbrev lhsArr (c : Dev nD) : FVec Ideal S50000x512 .f32 := V c main_arg0
abbrev rhsArr (c : Dev nD) : FVec Ideal S512x64 .f32 := V c main_arg2

/-- What point t writes back is block t of the product of the two arrays as the call finds them. -/
theorem flushed_eq (c : Dev nD) (t : Fin cfg0.N) :
    (dat0 (F := Ideal) V c).flushed 2 t = ((cfg0.win 2).blk t).view.read (Elt Ideal) (rowsTimes (lhsArr V c) (rhsArr V c)) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x64) hz]
  obtain ⟨e0, e1, e2, e3, e4, e5⟩ := idx_facts t
  funext j
  obtain ⟨p, f, rfl⟩ : ∃ (p : Fin 2000) (f : Fin 64), j = ix2 p f := ⟨j 0, j 1, eq_ix2 j⟩
  refine (payload_apply _ _ p f).trans ?_
  show _ = ∑ k : Fin 512, lhsArr V c (ix2 ((((cfg0.win 2).blk t).view.emb (ix2 p f)) 0) k) * rhsArr V c (ix2 k ((((cfg0.win 2).blk t).view.emb (ix2 p f)) 1))
  refine Finset.sum_congr rfl fun k _ => ?_
  show lhsArr V c (((cfg0.win 0).blk t).view.emb (ix2 p k)) * rhsArr V c (((cfg0.win 1).blk t).view.emb (ix2 k f))
    = lhsArr V c (ix2 ((((cfg0.win 2).blk t).view.emb (ix2 p f)) 0) k) * rhsArr V c (ix2 k ((((cfg0.win 2).blk t).view.emb (ix2 p f)) 1))
  have h0 : ((cfg0.win 0).blk t).view.emb (ix2 p k) = ix2 ((((cfg0.win 2).blk t).view.emb (ix2 p f)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k f) = ix2 k ((((cfg0.win 2).blk t).view.emb (ix2 p f)) 1) := by
    funext a; apply Fin.ext
    match a with
    | ⟨0, _⟩ => show win0_1.index t (0 : Fin 2) * 512 + 1 * k.val = k.val; omega
    | ⟨1, _⟩ => show win0_1.index t (1 : Fin 2) * 64 + 1 * f.val = win0_2.index t (1 : Fin 2) * 64 + 1 * f.val; omega
  rw [h0, h1]
  rfl

/-- An entry of the result is in point t's block exactly when its row is among rows 2000·t … 2000·t + 1999. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every entry is in some point's block: row r is in block r / 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have ht : (i 0).val / 2000 < 25 := by omega
  refine ⟨⟨(i 0).val / 2000, ht⟩, flush0_2 _, ?_⟩
  obtain ⟨e0, e1, e2, e3, e4, e5⟩ := idx_facts ⟨(i 0).val / 2000, ht⟩
  rw [mem_blk]
  intro a
  match a with
  | ⟨0, _⟩ => show win0_2.index _ (0 : Fin 2) * 2000 ≤ (i 0).val ∧ (i 0).val < win0_2.index _ (0 : Fin 2) * 2000 + 2000; simp only [] at e4; omega
  | ⟨1, _⟩ => show win0_2.index _ (1 : Fin 2) * 64 ≤ (i 1).val ∧ (i 1).val < win0_2.index _ (1 : Fin 2) * 64 + 64; omega

/-- THE ARRAY the call leaves: the product of the two arrays it was entered with. -/
theorem final (c : Dev nD) :
    (dat0 (F := Ideal) V c).arrAt 2 cfg0.N = rowsTimes (lhsArr V c) (rhsArr V c) :=
  (dat0 (F := Ideal) V c).arrAt_eq_of_cover 2 (rowsTimes (lhsArr V c) (rhsArr V c)) (fun t _ => flushed_eq V c t) cover

end Cert.KernelIdeal.Proj1

end
-- ==== Proof.Proj2.lean ====
/-
  The second projection, h2 = out1 · W2, as the array the third pipelined call leaves.

  The call walks the 50000 rows of the first layer's output in 5 blocks of 10000 rows; at each block the body multiplies
  the block by the whole of W2 on the matrix unit (both operands rounded to bf16 on the way in, which changes nothing
  over the extended reals) and writes the 10000 × 16 product back to rows 10000·t … 10000·t + 9999 of the result. Entry
  (i, j) of the result is Σ_k out1[i, k] · W2[k, j] whatever block i falls in, and the blocks tile the result.
-/
import proofs.«148669_j13134009991725_1_alg».proof.Proof.Gen.KernelIdeal.Frame
import proofs.«148669_j13134009991725_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj2

open Cert.KernelIdeal Cert.KernelIdeal.Gen Idealize.ShloMosaic Idealize.ShloMosaic.TcCoe Idealize.ShloMosaic.ValueIdx
open Idealize.SL.Sem
open Idealize.ShloMosaic.DotInner

/-- The product of a [50000, 64] array with a [64, 16] array, entry by entry. -/
def rowsTimes (a : FVec Ideal S50000x64 .f32) (b : FVec Ideal S64x16 .f32) : FVec Ideal S50000x16 .f32 :=
  fun i => ∑ k : Fin 64, a (ix2 (i 0) k) * b (ix2 k (i 1))

/-- The block product's dimension numbers say rows by columns. -/
theorem plain : Plain dot_S10000x64_S64x16_S10000x16_1_0_0_1_n_n :=
  plain_record dot_S10000x64_S64x16_S10000x16_1_0_0_1_n_n, S10000x64, S64x16

/-- What the body stores, at an entry of the block: the row of the left block against the column of the weights. -/
theorem payload_apply (x0 : Vec Ideal S10000x64 .f32) (x1 : Vec Ideal S64x16 .f32) (p : Fin 10000) (f : Fin 16) :
    k2_pay1 (F := Ideal) x0 x1 (ix2 p f) = ∑ k : Fin 64, x0 (ix2 p k) * x1 (ix2 k f) := by
  unfold k2_pay1
  simp only [shapeCast_self]
  exact plain.matmul_zero none (truncf .bf16 x0 bitsLt_bf16_f32) (truncf .bf16 x1 bitsLt_bf16_f32) p f

theorem hz : (![0, 0] : Fin 2 → Nat) = fun _ => 0 := funext fun a => by fin_cases a <;> rfl

/-- The printed index maps over the 5 points: the left block and the result block are block t along the rows, the
    weights are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The two arrays as the call finds them. -/
abbrev lhsArr (c : Dev nD) : FVec Ideal S50000x64 .f32 := V c main_v45_0
abbrev rhsArr (c : Dev nD) : FVec Ideal S64x16 .f32 := V c main_arg4

/-- What point t writes back is block t of the product of the two arrays as the call finds them. -/
theorem flushed_eq (c : Dev nD) (t : Fin cfg2.N) :
    (dat2 (F := Ideal) V c).flushed 2 t = ((cfg2.win 2).blk t).view.read (Elt Ideal) (rowsTimes (lhsArr V c) (rhsArr V c)) := by
  show (cfg2.win 2).cut (grid2.coords t) ((dat2 (F := Ideal) V c).after 2 t) = _
  rw [after2_2]
  unfold out2_2
  rw [View.canon_unit_zero hz]
  simp only [View.ld_unit_zero (S := S10000x64) hz, View.ld_unit_zero (S := S64x16) hz]
  obtain ⟨e0, e1, e2, e3, e4, e5⟩ := idx_facts t
  funext j
  obtain ⟨p, f, rfl⟩ : ∃ (p : Fin 10000) (f : Fin 16), j = ix2 p f := ⟨j 0, j 1, eq_ix2 j⟩
  refine (payload_apply _ _ p f).trans ?_
  show _ = ∑ k : Fin 64, lhsArr V c (ix2 ((((cfg2.win 2).blk t).view.emb (ix2 p f)) 0) k) * rhsArr V c (ix2 k ((((cfg2.win 2).blk t).view.emb (ix2 p f)) 1))
  refine Finset.sum_congr rfl fun k _ => ?_
  show lhsArr V c (((cfg2.win 0).blk t).view.emb (ix2 p k)) * rhsArr V c (((cfg2.win 1).blk t).view.emb (ix2 k f))
    = lhsArr V c (ix2 ((((cfg2.win 2).blk t).view.emb (ix2 p f)) 0) k) * rhsArr V c (ix2 k ((((cfg2.win 2).blk t).view.emb (ix2 p f)) 1))
  have h0 : ((cfg2.win 0).blk t).view.emb (ix2 p k) = ix2 ((((cfg2.win 2).blk t).view.emb (ix2 p f)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k f) = ix2 k ((((cfg2.win 2).blk t).view.emb (ix2 p f)) 1) := by
    funext a; apply Fin.ext
    match a with
    | ⟨0, _⟩ => show win2_1.index t (0 : Fin 2) * 64 + 1 * k.val = k.val; omega
    | ⟨1, _⟩ => show win2_1.index t (1 : Fin 2) * 16 + 1 * f.val = win2_2.index t (1 : Fin 2) * 16 + 1 * f.val; omega
  rw [h0, h1]
  rfl

/-- An entry of the result is in point t's block exactly when its row is among rows 10000·t … 10000·t + 9999. -/
theorem mem_blk (t : Fin cfg2.N) (i : S50000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- Every entry is in some point's block: row r is in block r / 10000. -/
theorem cover (i : S50000x16.Idx) : ∃ t : Fin cfg2.N, (cfg2.win 2).flush t = true ∧ i ∈ ((cfg2.win 2).blk t).view.set := by
  have hi0 : (i 0).val < 50000 := (i 0).isLt
  have hi1 : (i 1).val < 16 := (i 1).isLt
  have ht : (i 0).val / 10000 < 5 := by omega
  refine ⟨⟨(i 0).val / 10000, ht⟩, flush2_2 _, ?_⟩
  obtain ⟨e0, e1, e2, e3, e4, e5⟩ := idx_facts ⟨(i 0).val / 10000, ht⟩
  rw [mem_blk]
  intro a
  match a with
  | ⟨0, _⟩ => show win2_2.index _ (0 : Fin 2) * 10000 ≤ (i 0).val ∧ (i 0).val < win2_2.index _ (0 : Fin 2) * 10000 + 10000; simp only [] at e4; omega
  | ⟨1, _⟩ => show win2_2.index _ (1 : Fin 2) * 16 ≤ (i 1).val ∧ (i 1).val < win2_2.index _ (1 : Fin 2) * 16 + 16; omega

/-- THE ARRAY the call leaves: the product of the two arrays it was entered with. -/
theorem final (c : Dev nD) :
    (dat2 (F := Ideal) V c).arrAt 2 cfg2.N = rowsTimes (lhsArr V c) (rhsArr V c) :=
  (dat2 (F := Ideal) V c).arrAt_eq_of_cover 2 (rowsTimes (lhsArr V c) (rhsArr V c)) (fun t _ => flushed_eq V c t) cover

end Cert.KernelIdeal.Proj2

end
-- ==== Proof.KlSpec.lean ====
/-
  The KL term of one entry, as a function of two numbers.

  Both programs compute, per node and per latent coordinate, from the pre-activation m of the mean half and the
  pre-activation v of the deviation half,

      s  = softplus(v) + 1e-10,        KL = -log s + 1/2 · (s·s + m·m) - 1/2,

  with softplus written the numerically careful way, max(v, 0) + log1p(exp(-|v - 0|)), behind a test "is v - 0 a NaN"
  that never fires over the extended reals. The kernel negates by 0 - x where the host has a negation of its own; over
  the extended reals 0 - x = -x at the infinities too, and that is the only law the two spellings need.
-/
import Idealize.ShloMosaic.PureOps.Ideal.Laws
import Idealize.ShloMosaic.Lib.KernelVsHost
import Idealize.ShloMosaic.Lib.ValueIdx

noncomputable section

namespace Cert.KlSpec

open Idealize.ShloMosaic Idealize.ShloMosaic.ValueIdx

/-- The KL term in the kernel's spelling: negations as 0 - x, the vector unit's exp / log1p / log, an ordered
    "not equal" as the NaN test. -/
def klPoint (mean pre : Ideal .f32) : Ideal .f32 :=
  FloatOps.subf
    (FloatOps.addf
      (FloatOps.subf (Scalar.ofBits .f32 0x00000000#32)
        (FloatOps.log
          (FloatOps.addf
            (Scalar.select
              (FloatOps.cmpf .one (FloatOps.subf pre (Scalar.ofBits .f32 0x00000000#32)) (FloatOps.subf pre (Scalar.ofBits .f32 0x00000000#32)))
              (FloatOps.addf pre (Scalar.ofBits .f32 0x00000000#32))
              (FloatOps.addf (FloatOps.maximumf pre (Scalar.ofBits .f32 0x00000000#32))
                (FloatOps.log1p (FloatOps.exp (FloatOps.subf (Scalar.ofBits .f32 0x00000000#32)
                  (FloatOps.absf (FloatOps.subf pre (Scalar.ofBits .f32 0x00000000#32))))))))
            (Scalar.ofBits .f32 0x2EDBE6FF#32))))
      (FloatOps.mulf (Scalar.ofBits .f32 0x3F000000#32)
        (FloatOps.addf
          (FloatOps.mulf
            (FloatOps.addf
              (Scalar.select
                (FloatOps.cmpf .one (FloatOps.subf pre (Scalar.ofBits .f32 0x00000000#32)) (FloatOps.subf pre (Scalar.ofBits .f32 0x00000000#32)))
                (FloatOps.addf pre (Scalar.ofBits .f32 0x00000000#32))
                (FloatOps.addf (FloatOps.maximumf pre (Scalar.ofBits .f32 0x00000000#32))
                  (FloatOps.log1p (FloatOps.exp (FloatOps.subf (Scalar.ofBits .f32 0x00000000#32)
                    (FloatOps.absf (FloatOps.subf pre (Scalar.ofBits .f32 0x00000000#32))))))))
              (Scalar.ofBits .f32 0x2EDBE6FF#32))
            (FloatOps.addf
              (Scalar.select
                (FloatOps.cmpf .one (FloatOps.subf pre (Scalar.ofBits .f32 0x00000000#32)) (FloatOps.subf pre (Scalar.ofBits .f32 0x00000000#32)))
                (FloatOps.addf pre (Scalar.ofBits .f32 0x00000000#32))
                (FloatOps.addf (FloatOps.maximumf pre (Scalar.ofBits .f32 0x00000000#32))
                  (FloatOps.log1p (FloatOps.exp (FloatOps.subf (Scalar.ofBits .f32 0x00000000#32)
                    (FloatOps.absf (FloatOps.subf pre (Scalar.ofBits .f32 0x00000000#32))))))))
              (Scalar.ofBits .f32 0x2EDBE6FF#32)))
          (FloatOps.mulf mean mean))))
    (Scalar.ofBits .f32 0x3F000000#32)

/-- The same term in the host's spelling: its own negation and absolute value, its own exp / log1p / log, an unordered
    "not equal" as the NaN test. -/
def klPointHost (mean pre : Ideal .f32) : Ideal .f32 :=
  FloatOps.subf
    (FloatOps.addf
      (FloatOps.hostNegf
        (FloatOps.hostUnary .log
          (FloatOps.addf
            (Scalar.select
              (FloatOps.cmpf .une (FloatOps.subf pre (FloatOps.ofBits .f32 0x00000000#32)) (FloatOps.subf pre (FloatOps.ofBits .f32 0x00000000#32)))
              (FloatOps.addf pre (FloatOps.ofBits .f32 0x00000000#32))
              (FloatOps.addf (FloatOps.maximumf pre (FloatOps.ofBits .f32 0x00000000#32))
                (FloatOps.hostUnary .log1p (FloatOps.hostUnary .exp (FloatOps.hostNegf
                  (FloatOps.hostAbsf (FloatOps.subf pre (FloatOps.ofBits .f32 0x00000000#32))))))))
            (FloatOps.ofBits .f32 0x2EDBE6FF#32))))
      (FloatOps.mulf (FloatOps.ofBits .f32 0x3F000000#32)
        (FloatOps.addf
          (FloatOps.mulf
            (FloatOps.addf
              (Scalar.select
                (FloatOps.cmpf .une (FloatOps.subf pre (FloatOps.ofBits .f32 0x00000000#32)) (FloatOps.subf pre (FloatOps.ofBits .f32 0x00000000#32)))
                (FloatOps.addf pre (FloatOps.ofBits .f32 0x00000000#32))
                (FloatOps.addf (FloatOps.maximumf pre (FloatOps.ofBits .f32 0x00000000#32))
                  (FloatOps.hostUnary .log1p (FloatOps.hostUnary .exp (FloatOps.hostNegf
                    (FloatOps.hostAbsf (FloatOps.subf pre (FloatOps.ofBits .f32 0x00000000#32))))))))
              (FloatOps.ofBits .f32 0x2EDBE6FF#32))
            (FloatOps.addf
              (Scalar.select
                (FloatOps.cmpf .une (FloatOps.subf pre (FloatOps.ofBits .f32 0x00000000#32)) (FloatOps.subf pre (FloatOps.ofBits .f32 0x00000000#32)))
                (FloatOps.addf pre (FloatOps.ofBits .f32 0x00000000#32))
                (FloatOps.addf (FloatOps.maximumf pre (FloatOps.ofBits .f32 0x00000000#32))
                  (FloatOps.hostUnary .log1p (FloatOps.hostUnary .exp (FloatOps.hostNegf
                    (FloatOps.hostAbsf (FloatOps.subf pre (FloatOps.ofBits .f32 0x00000000#32))))))))
              (FloatOps.ofBits .f32 0x2EDBE6FF#32)))
          (FloatOps.mulf mean mean))))
    (FloatOps.ofBits .f32 0x3F000000#32)

/-- The two spellings are one number: the host's negation is 0 - x, and everything else is the same operation of the
    extended reals under two names. -/
theorem klPointHost_eq (mean pre : Ideal .f32) : klPointHost mean pre = klPoint mean pre := by
  unfold klPointHost klPoint
  simp only [← Ideal.subf_zero_eq_hostNegf]
  rfl

/-- The KL terms of an [n, C] array of pre-activations whose first H columns are means and whose columns H … 2H-1 are
    deviations' pre-activations: entry (r, j) pairs column j with column H + j of row r. -/
def klRows {n C H : Nat} (hC : H + H ≤ C) (o : FVec Ideal ⟨2, ![n, C]⟩ .f32) : FVec Ideal ⟨2, ![n, H]⟩ .f32 :=
  fun i => klPoint (o (ix2 (i 0 : Fin n) ⟨0 + (i 1 : Fin H).val, by have h : (i 1 : Fin H).val < H := (i 1 : Fin H).isLt; omega⟩))
    (o (ix2 (i 0 : Fin n) ⟨H + (i 1 : Fin H).val, by have h : (i 1 : Fin H).val < H := (i 1 : Fin H).isLt; omega⟩))

/-- A [1, C] row added to every row of an [n, C] array. -/
def biasRows {n C : Nat} (a : FVec Ideal ⟨2, ![n, C]⟩ .f32) (b : FVec Ideal ⟨2, ![1, C]⟩ .f32) : FVec Ideal ⟨2, ![n, C]⟩ .f32 :=
  fun i => a i + b (ix2 (0 : Fin 1) (i 1 : Fin C))

end Cert.KlSpec

end
-- ==== Proof.Layer1Out.lean ====
/-
  The first layer's output and its KL terms, as the two arrays the second pipelined call leaves.

  The call walks the 50000 rows in 5 blocks of 10000. At each block the body adds the one bias row to every row of the
  block and stores that (the layer's output), then pairs column j of the sum (a mean) with column 32 + j (a deviation's
  pre-activation) and stores their KL term. Both stores are the same function of the two arrays at every block — the
  bias row is whole at every point, the rows move with the block — and the blocks tile the two results.
-/
import proofs.«148669_j13134009991725_1_alg».proof.Proof.Gen.KernelIdeal.Frame
import proofs.«148669_j13134009991725_1_alg».proof.Proof.KlSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Out

open Cert.KernelIdeal Cert.KernelIdeal.Gen Idealize.ShloMosaic Idealize.ShloMosaic.TcCoe Idealize.ShloMosaic.ValueIdx
open Idealize.SL.Sem
open Cert.KlSpec

/-- What the body stores first, at an entry: the block's entry plus the bias at its column. -/
theorem sum_apply (v0 : Vec Ideal S1x64 .f32) (v4 : Vec Ideal S10000x64 .f32) (p : Fin 10000) (q : Fin 64) :
    k1_pay1 (F := Ideal) v0 v4 (ix2 p q) = v4 (ix2 p q) + v0 (ix2 (0 : Fin 1) q) := by
  unfold k1_pay1
  simp only [shapeCast_self]
  show v4 (ix2 p q) + broadcastTo S10000x64 v0 broadcasts_S1x64_S10000x64 (ix2 p q) = _
  rw [broadcastTo_1b_ab_apply]

/-- What the body stores second, at an entry: the KL term of the sum's columns j and 32 + j. -/
theorem kl_apply (v0 : Vec Ideal S1x64 .f32) (v4 : Vec Ideal S10000x64 .f32) (p : Fin 10000) (j : Fin 32) :
    k1_pay2 (F := Ideal) v0 v4 (ix2 p j)
      = klPoint (k1_pay1 (F := Ideal) v0 v4 (ix2 p ⟨0 + j.val, by have := j.isLt; omega⟩))
          (k1_pay1 (F := Ideal) v0 v4 (ix2 p ⟨32 + j.val, by have := j.isLt; omega⟩)) := by
  rw [← slice2_axis1_eq 0 (k1_pay1 (F := Ideal) v0 v4) slices_S10000x64_o0_0_S10000x32 p j,
    ← slice2_axis1_eq 32 (k1_pay1 (F := Ideal) v0 v4) slices_S10000x64_o0_32_S10000x32 p j]
  rfl

theorem hz : (![0, 0] : Fin 2 → Nat) = fun _ => 0 := funext fun a => by fin_cases a <;> rfl

/-- The printed index maps over the 5 points: the input block and both result blocks are block t along the rows; the
    bias row is whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The aggregate and the bias row as the call finds them. -/
abbrev aggArr (c : Dev nD) : FVec Ideal S50000x64 .f32 := V c main_v43
abbrev biasArr (c : Dev nD) : FVec Ideal S1x64 .f32 := V c main_v44

/-- What point t writes back to the first result is block t of (array + bias row). -/
theorem flushed_sum (c : Dev nD) (t : Fin cfg1.N) :
    (dat1 (F := Ideal) V c).flushed 2 t
      = ((cfg1.win 2).blk t).view.read (Elt Ideal) (biasRows (n := 50000) (C := 64) (aggArr V c) (biasArr V c)) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  refine (sum_apply _ _ p q).trans ?_
  show aggArr V c (((cfg1.win 0).blk t).view.emb (ix2 p q)) + biasArr V c (((cfg1.win 1).blk t).view.emb (ix2 (0 : Fin 1) q))
    = aggArr V c (((cfg1.win 2).blk t).view.emb (ix2 p q)) + biasArr V c (ix2 (0 : Fin 1) ((((cfg1.win 2).blk t).view.emb (ix2 p q)) 1))
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]
  rfl

/-- What point t writes back to the second result is block t of the KL terms of (array + bias row). -/
theorem flushed_kl (c : Dev nD) (t : Fin cfg1.N) :
    (dat1 (F := Ideal) V c).flushed 3 t
      = ((cfg1.win 3).blk t).view.read (Elt Ideal)
          (klRows (n := 50000) (C := 64) (H := 32) (by decide) (biasRows (n := 50000) (C := 64) (aggArr V c) (biasArr V c))) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz]
  obtain ⟨e0, e1, e2, e3, e4, e5, e6, e7⟩ := idx_facts t
  funext j
  obtain ⟨p, q, rfl⟩ : ∃ (p : Fin 10000) (q : Fin 32), j = ix2 p q := ⟨j 0, j 1, eq_ix2 j⟩
  refine (kl_apply _ _ p q).trans ?_
  rw [sum_apply, sum_apply]
  have hq : q.val < 32 := q.isLt
  -- the four reads, each where the result's block says
  have r0 : ∀ (k : Fin 64) (k' : Fin 64), k'.val = k.val →
      ((cfg1.win 0).blk t).view.emb (ix2 p k) = ix2 ((((cfg1.win 3).blk t).view.emb (ix2 p q)) 0) k' := by
    intro k k' hk
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k'.val; omega
  have r1 : ∀ (k : Fin 64) (k' : Fin 64), k'.val = k.val →
      ((cfg1.win 1).blk t).view.emb (ix2 (0 : Fin 1) k) = ix2 (0 : Fin 1) k' := by
    intro k k' hk
    funext a; apply Fin.ext
    match a with
    | ⟨0, _⟩ => show win1_1.index t (0 : Fin 2) * 1 + 1 * 0 = 0; omega
    | ⟨1, _⟩ => show win1_1.index t (1 : Fin 2) * 64 + 1 * k.val = k'.val; omega
  have c1 : ((((cfg1.win 3).blk t).view.emb (ix2 p q)) 1).val = q.val := by
    show win1_3.index t (1 : Fin 2) * 32 + 1 * q.val = q.val; omega
  show klPoint
      (aggArr V c (((cfg1.win 0).blk t).view.emb (ix2 p ⟨0 + q.val, by omega⟩))
        + biasArr V c (((cfg1.win 1).blk t).view.emb (ix2 (0 : Fin 1) ⟨0 + q.val, by omega⟩)))
      (aggArr V c (((cfg1.win 0).blk t).view.emb (ix2 p ⟨32 + q.val, by omega⟩))
        + biasArr V c (((cfg1.win 1).blk t).view.emb (ix2 (0 : Fin 1) ⟨32 + q.val, by omega⟩)))
    = klPoint
      (aggArr V c (ix2 ((((cfg1.win 3).blk t).view.emb (ix2 p q)) 0) ⟨0 + ((((cfg1.win 3).blk t).view.emb (ix2 p q)) 1).val, by omega⟩)
        + biasArr V c (ix2 (0 : Fin 1) ⟨0 + ((((cfg1.win 3).blk t).view.emb (ix2 p q)) 1).val, by omega⟩))
      (aggArr V c (ix2 ((((cfg1.win 3).blk t).view.emb (ix2 p q)) 0) ⟨32 + ((((cfg1.win 3).blk t).view.emb (ix2 p q)) 1).val, by omega⟩)
        + biasArr V c (ix2 (0 : Fin 1) ⟨32 + ((((cfg1.win 3).blk t).view.emb (ix2 p q)) 1).val, by omega⟩))
  rw [r0 ⟨0 + q.val, by omega⟩ ⟨0 + ((((cfg1.win 3).blk t).view.emb (ix2 p q)) 1).val, by omega⟩ (by show 0 + _ = 0 + q.val; omega),
    r0 ⟨32 + q.val, by omega⟩ ⟨32 + ((((cfg1.win 3).blk t).view.emb (ix2 p q)) 1).val, by omega⟩ (by show 32 + _ = 32 + q.val; omega),
    r1 ⟨0 + q.val, by omega⟩ ⟨0 + ((((cfg1.win 3).blk t).view.emb (ix2 p q)) 1).val, by omega⟩ (by show 0 + _ = 0 + q.val; omega),
    r1 ⟨32 + q.val, by omega⟩ ⟨32 + ((((cfg1.win 3).blk t).view.emb (ix2 p q)) 1).val, by omega⟩ (by show 32 + _ = 32 + q.val; omega)]
  rfl

/-- An entry of the first result is in point t's block exactly when its row is among rows 10000·t … 10000·t + 9999. -/
theorem mem_blk_sum (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45_0).slice (win1_2.rect t)).set ↔ _
  rw [View.set_slice_whole, Rect.mem_set_unit]
  exact Iff.rfl

theorem mem_blk_kl (t : Fin cfg1.N) (i : S50000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45_1).slice (win1_3.rect t)).set ↔ _
  rw [View.set_slice_whole, Rect.mem_set_unit]
  exact Iff.rfl

/-- Every entry of the first result is in some point's block: row r is in block r / 10000. -/
theorem cover_sum (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 10000 < 5 := by omega
  refine ⟨⟨(i 0).val / 10000, ht⟩, flush1_2 _, ?_⟩
  obtain ⟨e0, e1, e2, e3, e4, e5, e6, e7⟩ := idx_facts ⟨(i 0).val / 10000, ht⟩
  rw [mem_blk_sum]
  intro a
  match a with
  | ⟨0, _⟩ => show win1_2.index _ (0 : Fin 2) * 10000 ≤ (i 0).val ∧ (i 0).val < win1_2.index _ (0 : Fin 2) * 10000 + 10000; simp only [] at e4; omega
  | ⟨1, _⟩ => show win1_2.index _ (1 : Fin 2) * 64 ≤ (i 1).val ∧ (i 1).val < win1_2.index _ (1 : Fin 2) * 64 + 64; omega

theorem cover_kl (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  have ht : (i 0).val / 10000 < 5 := by omega
  refine ⟨⟨(i 0).val / 10000, ht⟩, flush1_3 _, ?_⟩
  obtain ⟨e0, e1, e2, e3, e4, e5, e6, e7⟩ := idx_facts ⟨(i 0).val / 10000, ht⟩
  rw [mem_blk_kl]
  intro a
  match a with
  | ⟨0, _⟩ => show win1_3.index _ (0 : Fin 2) * 10000 ≤ (i 0).val ∧ (i 0).val < win1_3.index _ (0 : Fin 2) * 10000 + 10000; simp only [] at e6; omega
  | ⟨1, _⟩ => show win1_3.index _ (1 : Fin 2) * 32 ≤ (i 1).val ∧ (i 1).val < win1_3.index _ (1 : Fin 2) * 32 + 32; omega

/-- THE FIRST ARRAY the call leaves: the array it was entered with plus the bias row, row by row. -/
theorem final_sum (c : Dev nD) :
    (dat1 (F := Ideal) V c).arrAt 2 cfg1.N = biasRows (n := 50000) (C := 64) (aggArr V c) (biasArr V c) :=
  (dat1 (F := Ideal) V c).arrAt_eq_of_cover 2 _ (fun t _ => flushed_sum V c t) cover_sum

/-- THE SECOND ARRAY the call leaves: the KL terms of that sum. -/
theorem final_kl (c : Dev nD) :
    (dat1 (F := Ideal) V c).arrAt 3 cfg1.N
      = klRows (n := 50000) (C := 64) (H := 32) (by decide) (biasRows (n := 50000) (C := 64) (aggArr V c) (biasArr V c)) :=
  (dat1 (F := Ideal) V c).arrAt_eq_of_cover 3 _ (fun t _ => flushed_kl V c t) cover_kl

end Cert.KernelIdeal.Layer1Out

end
-- ==== Proof.Layer2Out.lean ====
/-
  The second layer's output and its KL terms, as the two arrays the fourth pipelined call leaves.

  The call walks the 50000 rows in 5 blocks of 10000. At each block the body adds the one bias row to every row of the
  block and stores that (the layer's output), then pairs column j of the sum (a mean) with column 8 + j (a deviation's
  pre-activation) and stores their KL term. Both stores are the same function of the two arrays at every block — the
  bias row is whole at every point, the rows move with the block — and the blocks tile the two results.
-/
import proofs.«148669_j13134009991725_1_alg».proof.Proof.Gen.KernelIdeal.Frame
import proofs.«148669_j13134009991725_1_alg».proof.Proof.KlSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2Out

open Cert.KernelIdeal Cert.KernelIdeal.Gen Idealize.ShloMosaic Idealize.ShloMosaic.TcCoe Idealize.ShloMosaic.ValueIdx
open Idealize.SL.Sem
open Cert.KlSpec

/-- What the body stores first, at an entry: the block's entry plus the bias at its column. -/
theorem sum_apply (v0 : Vec Ideal S1x16 .f32) (v4 : Vec Ideal S10000x16 .f32) (p : Fin 10000) (q : Fin 16) :
    k3_pay1 (F := Ideal) v0 v4 (ix2 p q) = v4 (ix2 p q) + v0 (ix2 (0 : Fin 1) q) := by
  unfold k3_pay1
  simp only [shapeCast_self]
  show v4 (ix2 p q) + broadcastTo S10000x16 v0 broadcasts_S1x16_S10000x16 (ix2 p q) = _
  rw [broadcastTo_1b_ab_apply]

/-- What the body stores second, at an entry: the KL term of the sum's columns j and 8 + j. -/
theorem kl_apply (v0 : Vec Ideal S1x16 .f32) (v4 : Vec Ideal S10000x16 .f32) (p : Fin 10000) (j : Fin 8) :
    k3_pay2 (F := Ideal) v0 v4 (ix2 p j)
      = klPoint (k3_pay1 (F := Ideal) v0 v4 (ix2 p ⟨0 + j.val, by have := j.isLt; omega⟩))
          (k3_pay1 (F := Ideal) v0 v4 (ix2 p ⟨8 + j.val, by have := j.isLt; omega⟩)) := by
  rw [← slice2_axis1_eq 0 (k3_pay1 (F := Ideal) v0 v4) slices_S10000x16_o0_0_S10000x8 p j,
    ← slice2_axis1_eq 8 (k3_pay1 (F := Ideal) v0 v4) slices_S10000x16_o0_8_S10000x8 p j]
  rfl

theorem hz : (![0, 0] : Fin 2 → Nat) = fun _ => 0 := funext fun a => by fin_cases a <;> rfl

/-- The printed index maps over the 5 points: the input block and both result blocks are block t along the rows; the
    bias row is whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The aggregate and the bias row as the call finds them. -/
abbrev aggArr (c : Dev nD) : FVec Ideal S50000x16 .f32 := V c main_v59
abbrev biasArr (c : Dev nD) : FVec Ideal S1x16 .f32 := V c main_v60

/-- What point t writes back to the first result is block t of (array + bias row). -/
theorem flushed_sum (c : Dev nD) (t : Fin cfg3.N) :
    (dat3 (F := Ideal) V c).flushed 2 t
      = ((cfg3.win 2).blk t).view.read (Elt Ideal) (biasRows (n := 50000) (C := 16) (aggArr V c) (biasArr V c)) := by
  show (cfg3.win 2).cut (grid3.coords t) ((dat3 (F := Ideal) V c).after 2 t) = _
  rw [after3_2]
  unfold out3_2
  rw [View.canon_unit_zero hz]
  simp only [View.ld_unit_zero (S := S10000x16) hz, View.ld_unit_zero (S := S1x16) hz]
  obtain ⟨e0, e1, e2, e3, e4, e5, e6, e7⟩ := idx_facts t
  funext j
  obtain ⟨p, q, rfl⟩ : ∃ (p : Fin 10000) (q : Fin 16), j = ix2 p q := ⟨j 0, j 1, eq_ix2 j⟩
  refine (sum_apply _ _ p q).trans ?_
  show aggArr V c (((cfg3.win 0).blk t).view.emb (ix2 p q)) + biasArr V c (((cfg3.win 1).blk t).view.emb (ix2 (0 : Fin 1) q))
    = aggArr V c (((cfg3.win 2).blk t).view.emb (ix2 p q)) + biasArr V c (ix2 (0 : Fin 1) ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 16 + 1 * q.val = win3_2.index t (1 : Fin 2) * 16 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 16 + 1 * q.val = win3_2.index t (1 : Fin 2) * 16 + 1 * q.val; omega
  rw [h0, h1]
  rfl

set_option maxHeartbeats 1600000 in
/-- What point t writes back to the second result is block t of the KL terms of (array + bias row). -/
theorem flushed_kl (c : Dev nD) (t : Fin cfg3.N) :
    (dat3 (F := Ideal) V c).flushed 3 t
      = ((cfg3.win 3).blk t).view.read (Elt Ideal)
          (klRows (n := 50000) (C := 16) (H := 8) (by decide) (biasRows (n := 50000) (C := 16) (aggArr V c) (biasArr V c))) := by
  show (cfg3.win 3).cut (grid3.coords t) ((dat3 (F := Ideal) V c).after 3 t) = _
  rw [after3_3]
  unfold out3_3
  rw [View.canon_unit_zero hz]
  simp only [View.ld_unit_zero (S := S10000x16) hz, View.ld_unit_zero (S := S1x16) hz]
  obtain ⟨e0, e1, e2, e3, e4, e5, e6, e7⟩ := idx_facts t
  funext j
  obtain ⟨p, q, rfl⟩ : ∃ (p : Fin 10000) (q : Fin 8), j = ix2 p q := ⟨j 0, j 1, eq_ix2 j⟩
  refine (kl_apply _ _ p q).trans ?_
  rw [sum_apply, sum_apply]
  have hq : q.val < 8 := q.isLt
  -- the four reads, each where the result's block says
  have r0 : ∀ (k : Fin 16) (k' : Fin 16), k'.val = k.val →
      ((cfg3.win 0).blk t).view.emb (ix2 p k) = ix2 ((((cfg3.win 3).blk t).view.emb (ix2 p q)) 0) k' := by
    intro k k' hk
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 16 + 1 * k.val = k'.val; omega
  have r1 : ∀ (k : Fin 16) (k' : Fin 16), k'.val = k.val →
      ((cfg3.win 1).blk t).view.emb (ix2 (0 : Fin 1) k) = ix2 (0 : Fin 1) k' := by
    intro k k' hk
    funext a; apply Fin.ext
    match a with
    | ⟨0, _⟩ => show win3_1.index t (0 : Fin 2) * 1 + 1 * 0 = 0; omega
    | ⟨1, _⟩ => show win3_1.index t (1 : Fin 2) * 16 + 1 * k.val = k'.val; omega
  have c1 : ((((cfg3.win 3).blk t).view.emb (ix2 p q)) 1).val = q.val := by
    show win3_3.index t (1 : Fin 2) * 8 + 1 * q.val = q.val; omega
  show klPoint
      (aggArr V c (((cfg3.win 0).blk t).view.emb (ix2 p ⟨0 + q.val, by omega⟩))
        + biasArr V c (((cfg3.win 1).blk t).view.emb (ix2 (0 : Fin 1) ⟨0 + q.val, by omega⟩)))
      (aggArr V c (((cfg3.win 0).blk t).view.emb (ix2 p ⟨8 + q.val, by omega⟩))
        + biasArr V c (((cfg3.win 1).blk t).view.emb (ix2 (0 : Fin 1) ⟨8 + q.val, by omega⟩)))
    = klPoint
      (aggArr V c (ix2 ((((cfg3.win 3).blk t).view.emb (ix2 p q)) 0) ⟨0 + ((((cfg3.win 3).blk t).view.emb (ix2 p q)) 1).val, by omega⟩)
        + biasArr V c (ix2 (0 : Fin 1) ⟨0 + ((((cfg3.win 3).blk t).view.emb (ix2 p q)) 1).val, by omega⟩))
      (aggArr V c (ix2 ((((cfg3.win 3).blk t).view.emb (ix2 p q)) 0) ⟨8 + ((((cfg3.win 3).blk t).view.emb (ix2 p q)) 1).val, by omega⟩)
        + biasArr V c (ix2 (0 : Fin 1) ⟨8 + ((((cfg3.win 3).blk t).view.emb (ix2 p q)) 1).val, by omega⟩))
  rw [r0 ⟨0 + q.val, by omega⟩ ⟨0 + ((((cfg3.win 3).blk t).view.emb (ix2 p q)) 1).val, by omega⟩ (by show 0 + _ = 0 + q.val; omega),
    r0 ⟨8 + q.val, by omega⟩ ⟨8 + ((((cfg3.win 3).blk t).view.emb (ix2 p q)) 1).val, by omega⟩ (by show 8 + _ = 8 + q.val; omega),
    r1 ⟨0 + q.val, by omega⟩ ⟨0 + ((((cfg3.win 3).blk t).view.emb (ix2 p q)) 1).val, by omega⟩ (by show 0 + _ = 0 + q.val; omega),
    r1 ⟨8 + q.val, by omega⟩ ⟨8 + ((((cfg3.win 3).blk t).view.emb (ix2 p q)) 1).val, by omega⟩ (by show 8 + _ = 8 + q.val; omega)]
  rfl

/-- An entry of the first result is in point t's block exactly when its row is among rows 10000·t … 10000·t + 9999. -/
theorem mem_blk_sum (t : Fin cfg3.N) (i : S50000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v61_0).slice (win3_2.rect t)).set ↔ _
  rw [View.set_slice_whole, Rect.mem_set_unit]
  exact Iff.rfl

theorem mem_blk_kl (t : Fin cfg3.N) (i : S50000x8.Idx) :
    i ∈ ((cfg3.win 3).blk t).view.set ↔ ∀ a : Fin 2, win3_3.index t a * S10000x8.size a ≤ (i a).val ∧ (i a).val < win3_3.index t a * S10000x8.size a + S10000x8.size a := by
  show i ∈ ((View.whole main_v61_1).slice (win3_3.rect t)).set ↔ _
  rw [View.set_slice_whole, Rect.mem_set_unit]
  exact Iff.rfl

/-- Every entry of the first result is in some point's block: row r is in block r / 10000. -/
theorem cover_sum (i : S50000x16.Idx) : ∃ t : Fin cfg3.N, (cfg3.win 2).flush t = true ∧ i ∈ ((cfg3.win 2).blk t).view.set := by
  have hi0 : (i 0).val < 50000 := (i 0).isLt
  have hi1 : (i 1).val < 16 := (i 1).isLt
  have ht : (i 0).val / 10000 < 5 := by omega
  refine ⟨⟨(i 0).val / 10000, ht⟩, flush3_2 _, ?_⟩
  obtain ⟨e0, e1, e2, e3, e4, e5, e6, e7⟩ := idx_facts ⟨(i 0).val / 10000, ht⟩
  rw [mem_blk_sum]
  intro a
  match a with
  | ⟨0, _⟩ => show win3_2.index _ (0 : Fin 2) * 10000 ≤ (i 0).val ∧ (i 0).val < win3_2.index _ (0 : Fin 2) * 10000 + 10000; simp only [] at e4; omega
  | ⟨1, _⟩ => show win3_2.index _ (1 : Fin 2) * 16 ≤ (i 1).val ∧ (i 1).val < win3_2.index _ (1 : Fin 2) * 16 + 16; omega

theorem cover_kl (i : S50000x8.Idx) : ∃ t : Fin cfg3.N, (cfg3.win 3).flush t = true ∧ i ∈ ((cfg3.win 3).blk t).view.set := by
  have hi0 : (i 0).val < 50000 := (i 0).isLt
  have hi1 : (i 1).val < 8 := (i 1).isLt
  have ht : (i 0).val / 10000 < 5 := by omega
  refine ⟨⟨(i 0).val / 10000, ht⟩, flush3_3 _, ?_⟩
  obtain ⟨e0, e1, e2, e3, e4, e5, e6, e7⟩ := idx_facts ⟨(i 0).val / 10000, ht⟩
  rw [mem_blk_kl]
  intro a
  match a with
  | ⟨0, _⟩ => show win3_3.index _ (0 : Fin 2) * 10000 ≤ (i 0).val ∧ (i 0).val < win3_3.index _ (0 : Fin 2) * 10000 + 10000; simp only [] at e6; omega
  | ⟨1, _⟩ => show win3_3.index _ (1 : Fin 2) * 8 ≤ (i 1).val ∧ (i 1).val < win3_3.index _ (1 : Fin 2) * 8 + 8; omega

/-- THE FIRST ARRAY the call leaves: the array it was entered with plus the bias row, row by row. -/
theorem final_sum (c : Dev nD) :
    (dat3 (F := Ideal) V c).arrAt 2 cfg3.N = biasRows (n := 50000) (C := 16) (aggArr V c) (biasArr V c) :=
  (dat3 (F := Ideal) V c).arrAt_eq_of_cover 2 _ (fun t _ => flushed_sum V c t) cover_sum

/-- THE SECOND ARRAY the call leaves: the KL terms of that sum. -/
theorem final_kl (c : Dev nD) :
    (dat3 (F := Ideal) V c).arrAt 3 cfg3.N
      = klRows (n := 50000) (C := 16) (H := 8) (by decide) (biasRows (n := 50000) (C := 16) (aggArr V c) (biasArr V c)) :=
  (dat3 (F := Ideal) V c).arrAt_eq_of_cover 3 _ (fun t _ => flushed_kl V c t) cover_kl

end Cert.KernelIdeal.Layer2Out

end
-- ==== Proof.RefStages.lean ====
/-
  The reference's stages read as mathematics.

  The reference computes each layer as: project (a product of the node features with the layer's weights), aggregate over
  the graph (gather the projected rows at the edges' sources, scale each by the edge's normalisation, add them up at the
  edges' targets), add the bias, and from the result the KL terms. Here each of those stages that the kernel computes
  in a pipelined call is read entry by entry: the projection as a sum over the contracted axis, the bias add as the
  bias row added to every row, the KL chain as the point function of two columns. The graph part — which both programs
  compute by the same host operations — is never opened; of it only this is used: the reference spells the edge lists
  and the normalisation a second time for its second layer, and the second spelling is the first.
-/
import proofs.«148669_j13134009991725_1_alg».proof.Proof.RefReadPatched
import proofs.«148669_j13134009991725_1_alg».proof.Proof.KlSpec
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.TcCoe
open Idealize.ShloMosaic.ValueIdx Cert.KlSpec

variable (x0 : (⟨S50000x512, .f32⟩ : BufTy).Contents (Elt Ideal)) (x1 : (⟨S2x800000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal))

/-! ## The projections -/

/-- The first projection at an entry: the row of x against the column of W1. -/
theorem proj1_apply (i : S50000x64.Idx) :
    val_main_v4 (F := Ideal) x0 x2 i = ∑ k : Fin 512, x0 (ix2 (i 0) k) * x2 (ix2 k (i 1)) := by
  rw [val_main_v4_apply]
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The second projection at an entry: the row of the first layer's output against the column of W2. -/
theorem proj2_apply (i : S50000x16.Idx) :
    val_main_v62 (F := Ideal) x0 x1 x2 x3 x4 i
      = ∑ k : Fin 64, val_main_v46 (F := Ideal) x0 x1 x2 x3 (ix2 (i 0) k) * x4 (ix2 k (i 1)) := by
  rw [val_main_v62_apply]
  refine Finset.sum_congr rfl fun k _ => ?_
  have el : lidx_main_v62 i k = ix2 (i 0) k := funext fun a => Fin.ext (by match a with | ⟨0, _⟩ => rfl | ⟨1, _⟩ => rfl)
  have er : ridx_main_v62 i k = ix2 k (i 1) := funext fun a => Fin.ext (by match a with | ⟨0, _⟩ => rfl | ⟨1, _⟩ => rfl)
  rw [el, er]
  rfl

/-! ## Layer 1: the bias add and the KL terms -/

/-- The layer's output is the aggregate plus the bias row on every row: the host broadcasts the bias vector to one row
    and the row down the rows; read at (r, q) that is the bias at q, as is the one-row reshape of the vector. -/
theorem out1_eq (h : (⟨1, ![64]⟩ : Shape).ShapeCasts ⟨2, ![1, 64]⟩) :
    val_main_v46 (F := Ideal) x0 x1 x2 x3
      = biasRows (n := 50000) (C := 64) (val_main_v43 (F := Ideal) x0 x1 x2) (shapeCast ⟨2, ![1, 64]⟩ x3 h) := by
  funext i
  obtain ⟨r, q, rfl⟩ : ∃ (r : Fin 50000) (q : Fin 64), i = ix2 r q := ⟨i 0, i 1, eq_ix2 i⟩
  rw [val_main_v46_apply, val_main_v45_apply, val_main_v44_apply]
  show val_main_v43 (F := Ideal) x0 x1 x2 (ix2 r q) + x3 (idx_main_v44 (idx_main_v45 (ix2 r q)))
    = val_main_v43 (F := Ideal) x0 x1 x2 (ix2 r q) + shapeCast ⟨2, ![1, 64]⟩ x3 h (ix2 (0 : Fin 1) q)
  rw [shapeCast_a_1a_apply]
  refine congrArg (val_main_v43 (F := Ideal) x0 x1 x2 (ix2 r q) + ·) (congrArg x3 ?_)
  funext a
  match a with
  | ⟨0, _⟩ => rfl

/-- The mean half's column j and the deviation half's column j of the output, as the two slices read them. -/
theorem mean1_idx (r : Fin 50000) (j : Fin 32) :
    idx_main_v47 (ix2 r j) = ix2 r ⟨0 + j.val, by have := j.isLt; omega⟩ := by
  funext a; apply Fin.ext
  match a with
  | ⟨0, _⟩ => rfl
  | ⟨1, _⟩ => show j.val = 0 + j.val; omega

theorem dev1_idx (r : Fin 50000) (j : Fin 32) :
    idx_main_v48 (ix2 r j) = ix2 r ⟨32 + j.val, by have := j.isLt; omega⟩ := by
  funext a; apply Fin.ext
  match a with
  | ⟨0, _⟩ => rfl
  | ⟨1, _⟩ => rfl

/-- The layer's KL result is the KL term of the output's columns j and 32 + j, entry by entry: the host's chain of
    whole-array operations read at an entry is the point function in the host's spelling. -/
theorem kl1_eq :
    val_main_v61 (F := Ideal) x0 x1 x2 x3
      = klRows (n := 50000) (C := 64) (H := 32) (by decide) (val_main_v46 (F := Ideal) x0 x1 x2 x3) := by
  funext i
  obtain ⟨r, j, rfl⟩ : ∃ (r : Fin 50000) (j : Fin 32), i = ix2 r j := ⟨i 0, i 1, eq_ix2 i⟩
  refine Eq.trans ?_ (klPointHost_eq _ _)
  rw [val_main_v61_apply, val_main_v59_apply, val_main_v60_apply, val_main_cst_11_apply, val_main_v53_apply, val_main_v52_apply, val_main_v58_apply, val_main_v57_apply, val_main_cst_10_apply, val_main_v56_apply, val_main_v54_apply, val_main_v55_apply, val_main_v51_apply, val_main_v50_apply, val_main_cst_9_apply, val_main_v49_apply, val_main_call1_v4_apply, val_main_call1_v6_apply, val_main_call1_v11_apply, val_main_call1_v1_apply, val_main_call1_v10_apply, val_main_call1_v9_apply, val_main_call1_v8_apply, val_main_call1_v7_apply, val_main_call1_v3_apply, val_main_call1_v0_apply, val_main_call1_v2_apply, val_main_call1_v5_apply, val_main_call1_cst_apply, val_main_v47_apply, val_main_v48_apply]
  rw [mean1_idx, dev1_idx]
  generalize val_main_v46 (F := Ideal) x0 x1 x2 x3 = o
  rfl

/-! ## Layer 2: the bias add and the KL terms -/

/-- The layer's output is the aggregate plus the bias row on every row: the host broadcasts the bias vector to one row
    and the row down the rows; read at (r, q) that is the bias at q, as is the one-row reshape of the vector. -/
theorem out2_eq (h : (⟨1, ![16]⟩ : Shape).ShapeCasts ⟨2, ![1, 16]⟩) :
    val_main_v104 (F := Ideal) x0 x1 x2 x3 x4 x5
      = biasRows (n := 50000) (C := 16) (val_main_v101 (F := Ideal) x0 x1 x2 x3 x4) (shapeCast ⟨2, ![1, 16]⟩ x5 h) := by
  funext i
  obtain ⟨r, q, rfl⟩ : ∃ (r : Fin 50000) (q : Fin 16), i = ix2 r q := ⟨i 0, i 1, eq_ix2 i⟩
  rw [val_main_v104_apply, val_main_v103_apply, val_main_v102_apply]
  show val_main_v101 (F := Ideal) x0 x1 x2 x3 x4 (ix2 r q) + x5 (idx_main_v102 (idx_main_v103 (ix2 r q)))
    = val_main_v101 (F := Ideal) x0 x1 x2 x3 x4 (ix2 r q) + shapeCast ⟨2, ![1, 16]⟩ x5 h (ix2 (0 : Fin 1) q)
  rw [shapeCast_a_1a_apply]
  refine congrArg (val_main_v101 (F := Ideal) x0 x1 x2 x3 x4 (ix2 r q) + ·) (congrArg x5 ?_)
  funext a
  match a with
  | ⟨0, _⟩ => rfl

/-- The mean half's column j and the deviation half's column j of the output, as the two slices read them. -/
theorem mean2_idx (r : Fin 50000) (j : Fin 8) :
    idx_main_v105 (ix2 r j) = ix2 r ⟨0 + j.val, by have := j.isLt; omega⟩ := by
  funext a; apply Fin.ext
  match a with
  | ⟨0, _⟩ => rfl
  | ⟨1, _⟩ => show j.val = 0 + j.val; omega

theorem dev2_idx (r : Fin 50000) (j : Fin 8) :
    idx_main_v106 (ix2 r j) = ix2 r ⟨8 + j.val, by have := j.isLt; omega⟩ := by
  funext a; apply Fin.ext
  match a with
  | ⟨0, _⟩ => rfl
  | ⟨1, _⟩ => rfl

/-- The layer's KL result is the KL term of the output's columns j and 8 + j, entry by entry: the host's chain of
    whole-array operations read at an entry is the point function in the host's spelling. -/
theorem kl2_eq :
    val_main_v119 (F := Ideal) x0 x1 x2 x3 x4 x5
      = klRows (n := 50000) (C := 16) (H := 8) (by decide) (val_main_v104 (F := Ideal) x0 x1 x2 x3 x4 x5) := by
  funext i
  obtain ⟨r, j, rfl⟩ : ∃ (r : Fin 50000) (j : Fin 8), i = ix2 r j := ⟨i 0, i 1, eq_ix2 i⟩
  refine Eq.trans ?_ (klPointHost_eq _ _)
  rw [val_main_v119_apply, val_main_v117_apply, val_main_v118_apply, val_main_cst_25_apply, val_main_v111_apply, val_main_v110_apply, val_main_v116_apply, val_main_v115_apply, val_main_cst_24_apply, val_main_v114_apply, val_main_v112_apply, val_main_v113_apply, val_main_v109_apply, val_main_v108_apply, val_main_cst_23_apply, val_main_v107_apply, val_main_call3_v4_apply, val_main_call3_v6_apply, val_main_call3_v11_apply, val_main_call3_v1_apply, val_main_call3_v10_apply, val_main_call3_v9_apply, val_main_call3_v8_apply, val_main_call3_v7_apply, val_main_call3_v3_apply, val_main_call3_v0_apply, val_main_call3_v2_apply, val_main_call3_v5_apply, val_main_call3_cst_apply, val_main_v105_apply, val_main_v106_apply]
  rw [mean2_idx, dev2_idx]
  generalize val_main_v104 (F := Ideal) x0 x1 x2 x3 x4 x5 = o
  rfl

/-! ## The graph part, spelled twice -/

/-- The second layer's edge sources, edge targets and edge normalisation are the first layer's: the same operations of
    the same edge array, under other names. -/
theorem src_again : val_main_v64 (F := Ideal) x1 = val_main_v6 (F := Ideal) x1 := rfl
theorem dst_again : val_main_v65 (F := Ideal) x1 = val_main_v7 (F := Ideal) x1 := rfl
theorem norm_again : val_main_v88 (F := Ideal) x1 = val_main_v30 (F := Ideal) x1 := rfl

end Cert.ReferenceIdeal.Stages

end
-- ==== Proof.KernelStages.lean ====
/-
  The kernel's buffers, boundary by boundary, are the reference's stages.

  @main of the kernel alternates stretches of host operations with the four pipelined calls. Walking the boundaries in
  order: the first stretches build the edge lists with self-loops and the symmetric normalisation — the same host
  operations the reference applies, so the same arrays —; the first call leaves x · W1, which is the reference's first
  product entry by entry; the next stretch gathers, scales and scatter-adds over the graph — again the reference's own
  operations, applied to equal arrays —; the second call adds the bias and forms the KL terms, the reference's next
  stages entry by entry; and so on through the second layer. The graph operations are never opened: a gather or a
  scatter-add of equal arrays at equal indices is equal, whatever it computes.
-/
import proofs.«148669_j13134009991725_1_alg».proof.Proof.Gen.KernelIdeal.Frame
import proofs.«148669_j13134009991725_1_alg».proof.Proof.Proj1
import proofs.«148669_j13134009991725_1_alg».proof.Proof.Proj2
import proofs.«148669_j13134009991725_1_alg».proof.Proof.Layer1Out
import proofs.«148669_j13134009991725_1_alg».proof.Proof.Layer2Out
import proofs.«148669_j13134009991725_1_alg».proof.Proof.RefStages
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo
open Cert.KlSpec
open Cert.ReferenceIdeal.Read (val_main_v4 val_main_v6 val_main_v7 val_main_v30 val_main_v43 val_main_v46 val_main_v61 val_main_v62
  val_main_v101 val_main_v104 val_main_v119 val_main_v120 val_main_v121
  val_main_v13 val_main_v14 val_main_v15 val_main_cst_2)

variable (m : (ℓ : Loc nD τ sig) → Buf (Elt Ideal) ℓ) (ρ : Dev nD → PrngReg) (c : Dev nD)

/-! ## Up to the first call: the edge lists, the normalisation, and the untouched arguments -/

/-- After the first stretch: the edge lists with self-loops, the test "degree positive", the inverse square roots of the
    degrees, and the zero the test's other branch takes. -/
theorem W1_src : W1 m ρ c (Proc.devRef .tc main_v5) = val_main_v6 (F := Ideal) (m ((c : Thread nD τ).loc main_arg1)) := by
  dsimp only [W1, hostOps0]; after_results_simp; rfl
theorem W1_dst : W1 m ρ c (Proc.devRef .tc main_v6) = val_main_v7 (F := Ideal) (m ((c : Thread nD τ).loc main_arg1)) := by
  dsimp only [W1, hostOps0]; after_results_simp; rfl
theorem W1_pos : W1 m ρ c (Proc.devRef .tc main_v12) = val_main_v13 (F := Ideal) (m ((c : Thread nD τ).loc main_arg1)) := by
  dsimp only [W1, hostOps0]; after_results_simp; rfl
theorem W1_rsqrt : W1 m ρ c (Proc.devRef .tc main_v13) = val_main_v14 (F := Ideal) (m ((c : Thread nD τ).loc main_arg1)) := by
  dsimp only [W1, hostOps0]; after_results_simp; rfl
theorem W1_zero : W1 m ρ c (Proc.devRef .tc main_cst_2) = val_main_cst_2 (F := Ideal) := by
  dsimp only [W1, hostOps0]; after_results_simp; rfl

/-- After the `where`: deg^(-1/2) where the degree is positive, zero elsewhere. -/
theorem W2_dinv : W2 m ρ c (Proc.devRef .tc main_v14) = val_main_v15 (F := Ideal) (m ((c : Thread nD τ).loc main_arg1)) := by
  have h12 := W1_pos m ρ c
  have h13 := W1_rsqrt m ρ c
  have hz := W1_zero m ρ c
  dsimp only [W2, hostOps0_1]
  generalize W1 m ρ c = V1 at h12 h13 hz ⊢
  after_results_simp
  simp only [TRef.toBuf, TRef.ofBuf, cast_eq]
  rw [h12, h13, hz]
  rfl
theorem W2_src : W2 m ρ c (Proc.devRef .tc main_v5) = val_main_v6 (F := Ideal) (m ((c : Thread nD τ).loc main_arg1)) := by
  have h := W1_src m ρ c
  dsimp only [W2, hostOps0_1]
  generalize W1 m ρ c = V1 at h ⊢
  after_results_simp
  exact h
theorem W2_dst : W2 m ρ c (Proc.devRef .tc main_v6) = val_main_v7 (F := Ideal) (m ((c : Thread nD τ).loc main_arg1)) := by
  have h := W1_dst m ρ c
  dsimp only [W2, hostOps0_1]
  generalize W1 m ρ c = V1 at h ⊢
  after_results_simp
  exact h

theorem W3_src : W3 m ρ c (Proc.devRef .tc main_v5) = val_main_v6 (F := Ideal) (m ((c : Thread nD τ).loc main_arg1)) := by
  have h := W2_src m ρ c
  dsimp only [W3, hostOps0_2]
  generalize W2 m ρ c = V2 at h ⊢
  after_results_simp
  exact h
theorem W3_dst : W3 m ρ c (Proc.devRef .tc main_v6) = val_main_v7 (F := Ideal) (m ((c : Thread nD τ).loc main_arg1)) := by
  have h := W2_dst m ρ c
  dsimp only [W3, hostOps0_2]
  generalize W2 m ρ c = V2 at h ⊢
  after_results_simp
  exact h

/-- The edge normalisation deg^(-1/2)[s] · deg^(-1/2)[d]: two gathers of the same vector at the two edge lists. -/
theorem W3_norm : W3 m ρ c (Proc.devRef .tc main_v29) = val_main_v30 (F := Ideal) (m ((c : Thread nD τ).loc main_arg1)) := by
  have hd := W2_dinv m ρ c
  have hs := W2_src m ρ c
  have ht := W2_dst m ρ c
  dsimp only [W3, hostOps0_2]
  generalize W2 m ρ c = V2 at hd hs ht ⊢
  after_results_simp
  rw [hd, hs, ht]
  rfl

/-- No host operation before the first call writes an argument. -/
theorem W3_arg (b : Ref sig .tc) (hb : b = main_arg0 ∨ b = main_arg2 ∨ b = main_arg3 ∨ b = main_arg4 ∨ b = main_arg5) :
    W3 m ρ c (Proc.devRef .tc b) = m ((c : Thread nD τ).loc b) := by
  rcases hb with rfl | rfl | rfl | rfl | rfl <;>
  · dsimp only [W3, W2, W1, hostOps0, hostOps0_1, hostOps0_2]
    after_results_simp

/-! ## The first call: h1 -/

theorem W4_h1 : W4 m ρ c (Proc.devRef .tc main_v30) = val_main_v4 (F := Ideal) (m ((c : Thread nD τ).loc main_arg0)) (m ((c : Thread nD τ).loc main_arg2)) := by
  refine (W4_arr m ρ c 2).trans ((Proj1.final (V3 m ρ) c).trans ?_)
  have e0 : Proj1.lhsArr (V3 m ρ) c = (m ((c : Thread nD τ).loc main_arg0)) := W3_arg m ρ c main_arg0 (Or.inl rfl)
  have e2 : Proj1.rhsArr (V3 m ρ) c = (m ((c : Thread nD τ).loc main_arg2)) := W3_arg m ρ c main_arg2 (Or.inr (Or.inl rfl))
  rw [e0, e2]
  funext i
  rw [Cert.ReferenceIdeal.Stages.proj1_apply]
  rfl

theorem W4_src : W4 m ρ c (Proc.devRef .tc main_v5) = val_main_v6 (F := Ideal) (m ((c : Thread nD τ).loc main_arg1)) :=
  (W4_of_ne m ρ c main_v5 (by decide)).trans (W3_src m ρ c)
theorem W4_dst : W4 m ρ c (Proc.devRef .tc main_v6) = val_main_v7 (F := Ideal) (m ((c : Thread nD τ).loc main_arg1)) :=
  (W4_of_ne m ρ c main_v6 (by decide)).trans (W3_dst m ρ c)
theorem W4_norm : W4 m ρ c (Proc.devRef .tc main_v29) = val_main_v30 (F := Ideal) (m ((c : Thread nD τ).loc main_arg1)) :=
  (W4_of_ne m ρ c main_v29 (by decide)).trans (W3_norm m ρ c)
theorem W4_arg3 : W4 m ρ c (Proc.devRef .tc main_arg3) = (m ((c : Thread nD τ).loc main_arg3)) :=
  (W4_of_ne m ρ c main_arg3 (by decide)).trans (W3_arg m ρ c main_arg3 (Or.inr (Or.inr (Or.inl rfl))))
theorem W4_arg4 : W4 m ρ c (Proc.devRef .tc main_arg4) = (m ((c : Thread nD τ).loc main_arg4)) :=
  (W4_of_ne m ρ c main_arg4 (by decide)).trans (W3_arg m ρ c main_arg4 (Or.inr (Or.inr (Or.inr (Or.inl rfl)))))
theorem W4_arg5 : W4 m ρ c (Proc.devRef .tc main_arg5) = (m ((c : Thread nD τ).loc main_arg5)) :=
  (W4_of_ne m ρ c main_arg5 (by decide)).trans (W3_arg m ρ c main_arg5 (Or.inr (Or.inr (Or.inr (Or.inr rfl)))))

/-! ## The first aggregation over the graph, and the bias row -/

theorem W5_agg : W5 m ρ c (Proc.devRef .tc main_v43) = val_main_v43 (F := Ideal) (m ((c : Thread nD τ).loc main_arg0)) (m ((c : Thread nD τ).loc main_arg1)) (m ((c : Thread nD τ).loc main_arg2)) := by
  dsimp only [W5, hostOps1]
  after_results_simp
  rw [W4_h1, W4_src, W4_dst, W4_norm]
  rfl

theorem W5_bias : W5 m ρ c (Proc.devRef .tc main_v44) = shapeCast S1x64 (m ((c : Thread nD τ).loc main_arg3)) shapeCasts_S64_S1x64 := by
  dsimp only [W5, hostOps1]
  after_results_simp
  rw [W4_arg3]
  rfl

theorem W5_src : W5 m ρ c (Proc.devRef .tc main_v5) = val_main_v6 (F := Ideal) (m ((c : Thread nD τ).loc main_arg1)) := by
  dsimp only [W5, hostOps1]; after_results_simp; exact W4_src m ρ c
theorem W5_dst : W5 m ρ c (Proc.devRef .tc main_v6) = val_main_v7 (F := Ideal) (m ((c : Thread nD τ).loc main_arg1)) := by
  dsimp only [W5, hostOps1]; after_results_simp; exact W4_dst m ρ c
theorem W5_norm : W5 m ρ c (Proc.devRef .tc main_v29) = val_main_v30 (F := Ideal) (m ((c : Thread nD τ).loc main_arg1)) := by
  dsimp only [W5, hostOps1]; after_results_simp; exact W4_norm m ρ c
theorem W5_arg4 : W5 m ρ c (Proc.devRef .tc main_arg4) = (m ((c : Thread nD τ).loc main_arg4)) := by
  dsimp only [W5, hostOps1]; after_results_simp; exact W4_arg4 m ρ c
theorem W5_arg5 : W5 m ρ c (Proc.devRef .tc main_arg5) = (m ((c : Thread nD τ).loc main_arg5)) := by
  dsimp only [W5, hostOps1]; after_results_simp; exact W4_arg5 m ρ c

/-! ## The second call: the first layer's output and its KL terms -/

theorem W6_out1 : W6 m ρ c (Proc.devRef .tc main_v45_0) = val_main_v46 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Layer1Out.final_sum (V5 m ρ) c).trans ?_)
  show biasRows (n := 50000) (C := 64) (W5 m ρ c (Proc.devRef .tc main_v43)) (W5 m ρ c (Proc.devRef .tc main_v44)) = _
  rw [W5_agg, W5_bias]
  exact (Cert.ReferenceIdeal.Stages.out1_eq _ _ _ _ _).symm

theorem W6_kl1 : W6 m ρ c (Proc.devRef .tc main_v45_1) = val_main_v61 (F := Ideal) (m ((c : Thread nD τ).loc main_arg0)) (m ((c : Thread nD τ).loc main_arg1)) (m ((c : Thread nD τ).loc main_arg2)) (m ((c : Thread nD τ).loc main_arg3)) := by
  refine (W6_arr m ρ c 3).trans ((Layer1Out.final_kl (V5 m ρ) c).trans ?_)
  show klRows (n := 50000) (C := 64) (H := 32) (by decide) (biasRows (n := 50000) (C := 64) (W5 m ρ c (Proc.devRef .tc main_v43)) (W5 m ρ c (Proc.devRef .tc main_v44))) = _
  rw [W5_agg, W5_bias, ← Cert.ReferenceIdeal.Stages.out1_eq, ← Cert.ReferenceIdeal.Stages.kl1_eq]

theorem W6_src : W6 m ρ c (Proc.devRef .tc main_v5) = val_main_v6 (F := Ideal) (m ((c : Thread nD τ).loc main_arg1)) :=
  (W6_of_ne m ρ c main_v5 (by decide)).trans (W5_src m ρ c)
theorem W6_dst : W6 m ρ c (Proc.devRef .tc main_v6) = val_main_v7 (F := Ideal) (m ((c : Thread nD τ).loc main_arg1)) :=
  (W6_of_ne m ρ c main_v6 (by decide)).trans (W5_dst m ρ c)
theorem W6_norm : W6 m ρ c (Proc.devRef .tc main_v29) = val_main_v30 (F := Ideal) (m ((c : Thread nD τ).loc main_arg1)) :=
  (W6_of_ne m ρ c main_v29 (by decide)).trans (W5_norm m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)

/-! ## The third call: h2 -/

theorem W7_h2 : W7 m ρ c (Proc.devRef .tc main_v46) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Proj2.final (V6 m ρ) c).trans ?_)
  have e0 : Proj2.lhsArr (V6 m ρ) c = val_main_v46 (F := Ideal) (m ((c : Thread nD τ).loc main_arg0)) (m ((c : Thread nD τ).loc main_arg1)) (m ((c : Thread nD τ).loc main_arg2)) (m ((c : Thread nD τ).loc main_arg3)) := W6_out1 m ρ c
  have e4 : Proj2.rhsArr (V6 m ρ) c = (m ((c : Thread nD τ).loc main_arg4)) := W6_arg4 m ρ c
  rw [e0, e4]
  funext i
  rw [Cert.ReferenceIdeal.Stages.proj2_apply]
  generalize val_main_v46 (F := Ideal) (m ((c : Thread nD τ).loc main_arg0)) (m ((c : Thread nD τ).loc main_arg1)) (m ((c : Thread nD τ).loc main_arg2)) (m ((c : Thread nD τ).loc main_arg3)) = o
  rfl

/-- The third call reads the first layer's output through an input window and leaves it as it was. -/
theorem W7_out1 : W7 m ρ c (Proc.devRef .tc main_v45_0) = val_main_v46 (F := Ideal) (m ((c : Thread nD τ).loc main_arg0)) (m ((c : Thread nD τ).loc main_arg1)) (m ((c : Thread nD τ).loc main_arg2)) (m ((c : Thread nD τ).loc main_arg3)) :=
  (W7_arr m ρ c 0).trans ((((dat2 (V6 m ρ) c).arrAt_in 0 rfl _).trans (A_eq2 (V6 m ρ) c 0)).trans (W6_out1 m ρ c))
theorem W7_kl1 : W7 m ρ c (Proc.devRef .tc main_v45_1) = val_main_v61 (F := Ideal) (m ((c : Thread nD τ).loc main_arg0)) (m ((c : Thread nD τ).loc main_arg1)) (m ((c : Thread nD τ).loc main_arg2)) (m ((c : Thread nD τ).loc main_arg3)) :=
  (W7_of_ne m ρ c main_v45_1 (by decide)).trans (W6_kl1 m ρ c)
theorem W7_src : W7 m ρ c (Proc.devRef .tc main_v5) = val_main_v6 (F := Ideal) (m ((c : Thread nD τ).loc main_arg1)) :=
  (W7_of_ne m ρ c main_v5 (by decide)).trans (W6_src m ρ c)
theorem W7_dst : W7 m ρ c (Proc.devRef .tc main_v6) = val_main_v7 (F := Ideal) (m ((c : Thread nD τ).loc main_arg1)) :=
  (W7_of_ne m ρ c main_v6 (by decide)).trans (W6_dst m ρ c)
theorem W7_norm : W7 m ρ c (Proc.devRef .tc main_v29) = val_main_v30 (F := Ideal) (m ((c : Thread nD τ).loc main_arg1)) :=
  (W7_of_ne m ρ c main_v29 (by decide)).trans (W6_norm m ρ c)
theorem W7_arg5 : W7 m ρ c (Proc.devRef .tc main_arg5) = (m ((c : Thread nD τ).loc main_arg5)) :=
  (W7_of_ne m ρ c main_arg5 (by decide)).trans (W6_arg5 m ρ c)

/-! ## The second aggregation over the graph, and the second bias row -/

theorem W8_agg : W8 m ρ c (Proc.devRef .tc main_v59) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W8, hostOps3]
  after_results_simp
  rw [W7_h2, W7_src, W7_dst, W7_norm]
  rfl

theorem W8_bias : W8 m ρ c (Proc.devRef .tc main_v60) = shapeCast S1x16 (m ((c : Thread nD τ).loc main_arg5)) shapeCasts_S16_S1x16 := by
  dsimp only [W8, hostOps3]
  after_results_simp
  rw [W7_arg5]
  rfl

theorem W8_out1 : W8 m ρ c (Proc.devRef .tc main_v45_0) = val_main_v46 (F := Ideal) (m ((c : Thread nD τ).loc main_arg0)) (m ((c : Thread nD τ).loc main_arg1)) (m ((c : Thread nD τ).loc main_arg2)) (m ((c : Thread nD τ).loc main_arg3)) := by
  dsimp only [W8, hostOps3]; after_results_simp; exact W7_out1 m ρ c
theorem W8_kl1 : W8 m ρ c (Proc.devRef .tc main_v45_1) = val_main_v61 (F := Ideal) (m ((c : Thread nD τ).loc main_arg0)) (m ((c : Thread nD τ).loc main_arg1)) (m ((c : Thread nD τ).loc main_arg2)) (m ((c : Thread nD τ).loc main_arg3)) := by
  dsimp only [W8, hostOps3]; after_results_simp; exact W7_kl1 m ρ c

/-! ## The fourth call: the second layer's output and its KL terms -/

theorem W9_out2 : W9 m ρ c (Proc.devRef .tc main_v61_0) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Layer2Out.final_sum (V8 m ρ) c).trans ?_)
  show biasRows (n := 50000) (C := 16) (W8 m ρ c (Proc.devRef .tc main_v59)) (W8 m ρ c (Proc.devRef .tc main_v60)) = _
  rw [W8_agg, W8_bias]
  exact (Cert.ReferenceIdeal.Stages.out2_eq _ _ _ _ _ _ _).symm

theorem W9_kl2 : W9 m ρ c (Proc.devRef .tc main_v61_1) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 3).trans ((Layer2Out.final_kl (V8 m ρ) c).trans ?_)
  show klRows (n := 50000) (C := 16) (H := 8) (by decide) (biasRows (n := 50000) (C := 16) (W8 m ρ c (Proc.devRef .tc main_v59)) (W8 m ρ c (Proc.devRef .tc main_v60))) = _
  rw [W8_agg, W8_bias, ← Cert.ReferenceIdeal.Stages.out2_eq, ← Cert.ReferenceIdeal.Stages.kl2_eq]

theorem W9_out1 : W9 m ρ c (Proc.devRef .tc main_v45_0) = val_main_v46 (F := Ideal) (m ((c : Thread nD τ).loc main_arg0)) (m ((c : Thread nD τ).loc main_arg1)) (m ((c : Thread nD τ).loc main_arg2)) (m ((c : Thread nD τ).loc main_arg3)) :=
  (W9_of_ne m ρ c main_v45_0 (by decide)).trans (W8_out1 m ρ c)
theorem W9_kl1 : W9 m ρ c (Proc.devRef .tc main_v45_1) = val_main_v61 (F := Ideal) (m ((c : Thread nD τ).loc main_arg0)) (m ((c : Thread nD τ).loc main_arg1)) (m ((c : Thread nD τ).loc main_arg2)) (m ((c : Thread nD τ).loc main_arg3)) :=
  (W9_of_ne m ρ c main_v45_1 (by decide)).trans (W8_kl1 m ρ c)

/-! ## The return: the six results -/

theorem W10_out2 : W10 m ρ c (Proc.devRef .tc main_v61_0) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W10, hostOps4]; after_results_simp; exact W9_out2 m ρ c
theorem W10_out1 : W10 m ρ c (Proc.devRef .tc main_v45_0) = val_main_v46 (F := Ideal) (m ((c : Thread nD τ).loc main_arg0)) (m ((c : Thread nD τ).loc main_arg1)) (m ((c : Thread nD τ).loc main_arg2)) (m ((c : Thread nD τ).loc main_arg3)) := by
  dsimp only [W10, hostOps4]; after_results_simp; exact W9_out1 m ρ c
theorem W10_kl1 : W10 m ρ c (Proc.devRef .tc main_v45_1) = val_main_v61 (F := Ideal) (m ((c : Thread nD τ).loc main_arg0)) (m ((c : Thread nD τ).loc main_arg1)) (m ((c : Thread nD τ).loc main_arg2)) (m ((c : Thread nD τ).loc main_arg3)) := by
  dsimp only [W10, hostOps4]; after_results_simp; exact W9_kl1 m ρ c
theorem W10_kl2 : W10 m ρ c (Proc.devRef .tc main_v61_1) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W10, hostOps4]; after_results_simp; exact W9_kl2 m ρ c
theorem W10_zeros1 : W10 m ρ c (Proc.devRef .tc main_v62) = val_main_v120 (F := Ideal) := by
  dsimp only [W10, hostOps4]; after_results_simp; rfl
theorem W10_zeros2 : W10 m ρ c (Proc.devRef .tc main_v63) = val_main_v121 (F := Ideal) := by
  dsimp only [W10, hostOps4]; after_results_simp; rfl

end Cert.KernelIdeal.Stages

end
-- ==== Proof.lean ====
/-
  A two-layer graph convolution with KL terms: the kernel against its reference.

  Both programs compute, for node features x, an edge list, weights W1, W2 and biases b1, b2:

      h1 = x · W1,   out1 = A·h1 + b1,   kl1 = KL(out1),      h2 = out1 · W2,   out2 = A·h2 + b2,   kl2 = KL(out2),

  where A is the graph's normalised adjacency with self-loops (gather the rows at the edges' sources, scale by
  deg^(-1/2)[s] · deg^(-1/2)[d], add up at the edges' targets) and KL pairs column j of a layer's output with column
  half + j. The kernel computes the two products and the two (bias add, KL) stages in four pipelined calls, block by
  block over the rows, with bf16 operands on the matrix unit; the graph part it leaves to the same host operations the
  reference uses. Over the extended reals rounding is the identity and a product is a sum whatever its tiling, so every
  stage is the same function of the same arrays on both sides, entry by entry; no law of arithmetic beyond 0 - x = -x
  is needed, and the precondition (finite inputs) is never opened.

  The frames of the two kernel programs are the generated ones; the reference's is its generated run with the results
  dropped. The kernel's run with its results named is KernelRun.lean; that each result is the reference's stage is
  KernelStages.lean over the per-call modules Proj1, Layer1Out, Proj2, Layer2Out and the reference's stages read as
  mathematics in RefStages.lean.
-/
import proofs.«148669_j13134009991725_1_alg».proof.Defs
import proofs.«148669_j13134009991725_1_alg».proof.Proof.Gen.Kernel
import proofs.«148669_j13134009991725_1_alg».proof.Proof.Gen.Kernel.Frame
import proofs.«148669_j13134009991725_1_alg».proof.Proof.Gen.KernelIdeal
import proofs.«148669_j13134009991725_1_alg».proof.Proof.Gen.KernelIdeal.Frame
import proofs.«148669_j13134009991725_1_alg».proof.Proof.Gen.ReferenceIdeal
import proofs.«148669_j13134009991725_1_alg».proof.Proof.Gen.Pre_finite_inputs
import proofs.«148669_j13134009991725_1_alg».proof.Proof.RefRunPatched
import proofs.«148669_j13134009991725_1_alg».proof.Proof.RefReadPatched
import proofs.«148669_j13134009991725_1_alg».proof.Proof.KernelRun
import proofs.«148669_j13134009991725_1_alg».proof.Proof.KernelStages
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The ideal pass rewrote nothing: the idealized kernel is the kernel's own text read over the extended reals. -/
theorem preserves : Cert.preserves_Kernel_KernelIdeal := trivial

/-- From memories that agree on the six arguments both programs end with the same six results: the kernel's, named at
    its last boundary's contents, are the reference's stages of the arguments, which is what the reference's run ends at. -/
theorem algebraic : Cert.algebraic_KernelIdeal_ReferenceIdeal := by
  intro m ρ m' ρ' _ hagree
  refine ⟨_, _, _, _, _, _, Cert.KernelIdeal.Gen.Named.run_named (F := Ideal) m ρ, ?_⟩
  refine (θ_run Cert.ReferenceIdeal.defs _ _).mono (fun _ h c => ?_) (Cert.ReferenceIdeal.Value.run (F := Ideal) m' ρ')
  obtain ⟨r0, r1, r2, r3, r4, r5, k0, k1, k2, k3, k4, k5⟩ := h c
  obtain ⟨a0, a1, a2, a3, a4, a5⟩ := hagree c
  refine ⟨r0.trans ?_, r1.trans ?_, r2.trans ?_, r3.trans ?_, r4.trans ?_, r5.trans ?_, k0, k1, k2, k3, k4, k5⟩
  · rw [Cert.ReferenceIdeal.Read.val_main_v104_eq, a0, a1, a2, a3, a4, a5]
    exact (Cert.KernelIdeal.Stages.W10_out2 m ρ c).symm
  · rw [Cert.ReferenceIdeal.Read.val_main_v46_eq, a0, a1, a2, a3]
    exact (Cert.KernelIdeal.Stages.W10_out1 m ρ c).symm
  · rw [Cert.ReferenceIdeal.Read.val_main_v61_eq, a0, a1, a2, a3]
    exact (Cert.KernelIdeal.Stages.W10_kl1 m ρ c).symm
  · exact Cert.ReferenceIdeal.Read.val_main_v120_eq.trans (Cert.KernelIdeal.Stages.W10_zeros1 m ρ c).symm
  · rw [Cert.ReferenceIdeal.Read.val_main_v119_eq, a0, a1, a2, a3, a4, a5]
    exact (Cert.KernelIdeal.Stages.W10_kl2 m ρ c).symm
  · exact Cert.ReferenceIdeal.Read.val_main_v121_eq.trans (Cert.KernelIdeal.Stages.W10_zeros2 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
